-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3x64x64 : Shape := ⟨4, ![1024, 3, 64, 64]⟩
abbrev S_ : Shape := ⟨0, ![]⟩
abbrev S12288x20 : Shape := ⟨2, ![12288, 20]⟩
abbrev S20 : Shape := ⟨1, ![20]⟩

class Facts : Prop where
  bcast_S_S1024x3x64x64 : S_.BroadcastsInDim S1024x3x64x64 (![] : Fin 0 → Fin S1024x3x64x64.rank)
  reducesTo_S1024x3x64x64_S_d0_1_2_3 : S1024x3x64x64.ReducesTo [0, 1, 2, 3] S_
  h_S_ : 0 < S_.numel
  bcast_S_S12288x20 : S_.BroadcastsInDim S12288x20 (![] : Fin 0 → Fin S12288x20.rank)
  reducesTo_S12288x20_S_d0_1 : S12288x20.ReducesTo [0, 1] S_
  bcast_S_S20 : S_.BroadcastsInDim S20 (![] : Fin 0 → Fin S20.rank)
  reducesTo_S20_S_d0 : S20.ReducesTo [0] S_

variable [Facts]

def fn {F : FTy → Type} [FloatOps F] (main_arg0 : FVec F S1024x3x64x64 .f32) (main_arg1 : IVec S_ 32) (main_arg2 : FVec F S12288x20 .f32) (main_arg3 : FVec F S20 .f32) : IVec S_ 1 :=
  let main_v0 : FVec F S1024x3x64x64 .f32 := Host.absf main_arg0
  let main_cst : FVec F S_ .f32 := constant S_ .f32 0x7F800000#32
  let main_v1 : FVec F S1024x3x64x64 .f32 := broadcastInDim S1024x3x64x64 ![] bcast_S_S1024x3x64x64 main_cst
  let main_v2 : IVec S1024x3x64x64 1 := cmpf .olt main_v0 main_v1
  let main_c : IVec S_ 1 := constantI S_ 1 1#1
  let main_v3 : IVec S_ 1 := (fun x v => Host.reduce IntOp.andi x v reducesTo_S1024x3x64x64_S_d0_1_2_3 h_S_) main_v2 main_c
  let main_v4 : FVec F S12288x20 .f32 := Host.absf main_arg2
  let main_cst_0 : FVec F S_ .f32 := constant S_ .f32 0x7F800000#32
  let main_v5 : FVec F S12288x20 .f32 := broadcastInDim S12288x20 ![] bcast_S_S12288x20 main_cst_0
  let main_v6 : IVec S12288x20 1 := cmpf .olt main_v4 main_v5
  let main_c_1 : IVec S_ 1 := constantI S_ 1 1#1
  let main_v7 : IVec S_ 1 := (fun x v => Host.reduce IntOp.andi x v reducesTo_S12288x20_S_d0_1 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  main_v13
-- ==== Kernel.lean ====
abbrev S1024x3x64x64 : Shape := ⟨4, ![1024, 3, 64, 64]⟩
abbrev S_ : Shape := ⟨0, ![]⟩
abbrev S12288x20 : Shape := ⟨2, ![12288, 20]⟩
abbrev S20 : Shape := ⟨1, ![20]⟩
abbrev S1024x12288 : Shape := ⟨2, ![1024, 12288]⟩
abbrev S12288x1024 : Shape := ⟨2, ![12288, 1024]⟩
abbrev S20x12288 : Shape := ⟨2, ![20, 12288]⟩
abbrev S20x1 : Shape := ⟨2, ![20, 1]⟩
abbrev S1 : Shape := ⟨1, ![1]⟩
abbrev S20x1024 : Shape := ⟨2, ![20, 1024]⟩
abbrev S2048x1024 : Shape := ⟨2, ![2048, 1024]⟩
abbrev S20x2048 : Shape := ⟨2, ![20, 2048]⟩
abbrev S1024x20 : Shape := ⟨2, ![1024, 20]⟩

abbrev nBuf : Space → Nat
  | .hbm => 11
  | .vmem => 7
  | .smem => 1
  | _ => 0

abbrev bufTy : (tb : Table) → Fin (tcTables nBuf tb) → BufTy
  | .hbm, ⟨0, _⟩ => ⟨S1024x3x64x64, .f32⟩
  | .hbm, ⟨1, _⟩ => ⟨S_, .i32⟩
  | .hbm, ⟨2, _⟩ => ⟨S12288x20, .f32⟩
  | .hbm, ⟨3, _⟩ => ⟨S20, .f32⟩
  | .hbm, ⟨4, _⟩ => ⟨S1024x12288, .f32⟩
  | .hbm, ⟨5, _⟩ => ⟨S12288x1024, .f32⟩
  | .hbm, ⟨6, _⟩ => ⟨S20x12288, .f32⟩
  | .hbm, ⟨7, _⟩ => ⟨S20x1, .f32⟩
  | .hbm, ⟨8, _⟩ => ⟨S1, .i32⟩
  | .hbm, ⟨9, _⟩ => ⟨S20x1024, .f32⟩
  | .hbm, ⟨10, _⟩ => ⟨S1024x20, .f32⟩
  | .local _ .vmem, ⟨0, _⟩ => ⟨S2048x1024, .f32⟩
  | .local _ .vmem, ⟨1, _⟩ => ⟨S2048x1024, .f32⟩
  | .local _ .vmem, ⟨2, _⟩ => ⟨S20x2048, .f32⟩
  | .local _ .vmem, ⟨3, _⟩ => ⟨S20x2048, .f32⟩
  | .local _ .vmem, ⟨4, _⟩ => ⟨S20x1, .f32⟩
  | .local _ .vmem, ⟨5, _⟩ => ⟨S20x1024, .f32⟩
  | .local _ .vmem, ⟨6, _⟩ => ⟨S20x1024, .f32⟩
  | .local _ .smem, ⟨0, _⟩ => ⟨S1, .i32⟩
  | _, _ => ⟨S1024x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![6], ![false]⟩

def k0_cond3 (i : grid0.Coords) : BitVec 1 :=
  let arg0 : BitVec 32 := BitVec.ofNat 32 (i 0).val
  let c5_i32 : BitVec 32 := 5#32
  let v11 : BitVec 1 := Scalar.cmpi .eq arg0 c5_i32
  let v12 : BitVec 32 := Scalar.extui v11
  let c0_i32_6 : BitVec 32 := 0#32
  let v13 : BitVec 1 := Scalar.cmpi .ne v12 c0_i32_6
  v13

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S1024x3x64x64_S1024x12288 : S1024x3x64x64.ShapeCasts S1024x12288
  transposes_S1024x12288_S12288x1024_1_0 : S1024x12288.Transposes [1, 0] S12288x1024
  transposes_S12288x20_S20x12288_1_0 : S12288x20.Transposes [1, 0] S20x12288
  shapeCasts_S20_S20x1 : S20.ShapeCasts S20x1
  shapeCasts_S_S1 : S_.ShapeCasts S1
  inb_S20x2048_S20x2048_0_0 : ∀ a, (![0, 0] : Fin 2 → Nat) a + S20x2048.size a ≤ S20x2048.size a
  h_S20x2048 : 0 < S20x2048.numel
  shapeCasts_S20x2048_S20x2048 : S20x2048.ShapeCasts S20x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S20x1024_S20x1024_0_0 : ∀ a, (![0, 0] : Fin 2 → Nat) a + S20x1024.size a ≤ S20x1024.size a
  h_S20x1024 : 0 < S20x1024.numel
  shapeCasts_S20x1024_S20x1024 : S20x1024.ShapeCasts S20x1024
  inb_S1_S1_0 : ∀ a, (![0] : Fin 1 → Nat) a + S1.size a ≤ S1.size a
  numel1_S1 : S1.numel = 1
  iota_S20x1024_d0_w32 : S20x1024.Iotas .tc 32 [0]
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x1024 : S20x1.Broadcasts S20x1024
  transposes_S20x1024_S1024x20_1_0 : S20x1024.Transposes [1, 0] S1024x20
  dot_S20x2048_S2048x1024_S20x1024_1_0_0_1_n_n_wf : DotDims.WF S20x2048 S2048x1024 S20x1024 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .i32 = 32 ∨ (Rect.block (s := S1) S1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S12288x1024.size a
  hwx0_1 : ∀ i : grid0.Coords, EltTy.bits .f32 = 32 ∨ (Rect.block (s := S12288x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20x2048.size a ≤ S20x12288.size a
  hwx0_2 : ∀ i : grid0.Coords, EltTy.bits .f32 = 32 ∨ (Rect.block (s := S20x12288) S20x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x1.size a ≤ S20x1.size a
  hwx0_3 : ∀ i : grid0.Coords, EltTy.bits .f32 = 32 ∨ (Rect.block (s := S20x1) S20x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x1024.size a ≤ S20x1024.size a
  hwx0_4 : ∀ i : grid0.Coords, EltTy.bits .f32 = 32 ∨ (Rect.block (s := S20x1024) S20x1024.size (cc0_transform_4 i) (hinb0_4 i)).WholeWords (EltTy.packing .f32)

variable [Facts₀]

def dot_S20x2048_S2048x1024_S20x1024_1_0_0_1_n_n : DotDims S20x2048 S2048x1024 S20x1024 where
  lhsContracting := [1]
  rhsContracting := [0]
  lhsNonContracting := [0]
  rhsNonContracting := [1]
  lhsBatch := []
  rhsBatch := []
  wf := dot_S20x2048_S2048x1024_S20x1024_1_0_0_1_n_n_wf

abbrev win0_0 : Pipeline.Window sig grid0 :=
  Pipeline.Window.ofSpec (Memref.whole main_v4) S1.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S20x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S20x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S20x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S1024x3x64x64 : Shape := ⟨4, ![1024, 3, 64, 64]⟩
abbrev S_ : Shape := ⟨0, ![]⟩
abbrev S12288x20 : Shape := ⟨2, ![12288, 20]⟩
abbrev S20 : Shape := ⟨1, ![20]⟩
abbrev S1024x12288 : Shape := ⟨2, ![1024, 12288]⟩
abbrev S1024x20 : Shape := ⟨2, ![1024, 20]⟩
abbrev S1x20 : Shape := ⟨2, ![1, 20]⟩

abbrev nBuf : Space → Nat
  | .hbm => 26
  | .vmem => 0
  | .smem => 0
  | _ => 0

abbrev bufTy : (tb : Table) → Fin (tcTables nBuf tb) → BufTy
  | .hbm, ⟨0, _⟩ => ⟨S1024x3x64x64, .f32⟩
  | .hbm, ⟨1, _⟩ => ⟨S_, .i32⟩
  | .hbm, ⟨2, _⟩ => ⟨S12288x20, .f32⟩
  | .hbm, ⟨3, _⟩ => ⟨S20, .f32⟩
  | .hbm, ⟨4, _⟩ => ⟨S1024x12288, .f32⟩
  | .hbm, ⟨5, _⟩ => ⟨S1024x20, .f32⟩
  | .hbm, ⟨6, _⟩ => ⟨S1x20, .f32⟩
  | .hbm, ⟨7, _⟩ => ⟨S1024x20, .f32⟩
  | .hbm, ⟨8, _⟩ => ⟨S1024x20, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S20, .i32⟩
  | .hbm, ⟨16, _⟩ => ⟨S20, .i32⟩
  | .hbm, ⟨17, _⟩ => ⟨S20, .i1⟩
  | .hbm, ⟨18, _⟩ => ⟨S20, .i32⟩
  | .hbm, ⟨19, _⟩ => ⟨S20, .i1⟩
  | .hbm, ⟨20, _⟩ => ⟨S20, .i1⟩
  | .hbm, ⟨21, _⟩ => ⟨S1x20, .i1⟩
  | .hbm, ⟨22, _⟩ => ⟨S_, .f32⟩
  | .hbm, ⟨23, _⟩ => ⟨S1024x20, .i1⟩
  | .hbm, ⟨24, _⟩ => ⟨S1024x20, .f32⟩
  | .hbm, ⟨25, _⟩ => ⟨S1024x20, .f32⟩
  | _, _ => ⟨S1024x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  shapeCasts_S1024x3x64x64_S1024x12288 : S1024x3x64x64.ShapeCasts S1024x12288
  bcast_S20_S1x20_1 : S20.BroadcastsInDim S1x20 (![1] : Fin 1 → Fin S1x20.rank)
  bcast_S1x20_S1024x20_0_1 : S1x20.BroadcastsInDim S1024x20 (![0, 1] : Fin 2 → Fin S1024x20.rank)
  bcast_S_S20 : S_.BroadcastsInDim S20 (![] : Fin 0 → Fin S20.rank)
  bcast_S_S1024x20 : S_.BroadcastsInDim S1024x20 (![] : Fin 0 → Fin S1024x20.rank)
  dot_S1024x12288_S12288x20_S1024x20_1_0_0_1_n_n_wf : DotDims.WF S1024x12288 S12288x20 S1024x20 [1] [0] [0] [1] [] []

variable [Facts₀]

def dot_S1024x12288_S12288x20_S1024x20_1_0_0_1_n_n : DotDims S1024x12288 S12288x20 S1024x20 where
  lhsContracting := [1]
  rhsContracting := [0]
  lhsNonContracting := [0]
  rhsNonContracting := [1]
  lhsBatch := []
  rhsBatch := []
  wf := dot_S1024x12288_S12288x20_S1024x20_1_0_0_1_n_n_wf

class Facts : Prop extends Facts₀ where

variable [Facts]
-- ==== Proof.Pieces.lean ====
/-
  What one run of the kernel body leaves behind, as values of what it loaded.

  The body multiplies the [20, 2048] block of the transposed weights by the [2048, 1024] block of the transposed
  input. At the first grid point the product is stored into the scratch accumulator; at every later point it is
  added to what the accumulator held; at the last point the accumulator is read back after that addition, the
  bias column is added along the lanes, and the rows outside the task's window are replaced by the fill constant
  before the store into the output block. Each store covers its whole buffer, so what a buffer holds afterwards
  is the stored value itself, and a load placed after such a store reads that value.
-/
import proofs.«134110_g42339787604781_fold_wed_m_270_15_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen

variable {F : FTy → Type} [FloatOps F]

/-- The two spellings of the zero offsets of a rank-2 and of a rank-1 rectangle. -/
theorem hz : (![0, 0] : Fin 2 → Nat) = fun _ => 0 := funext fun a => by fin_cases a <;> rfl
theorem hz1 : (![0] : Fin 1 → Nat) = fun _ => 0 := funext fun a => by fin_cases a <;> rfl

/-- A one-element vector has one index. -/
theorem idx1_eq (y : S1.Idx) : y = ix1 (0 : Fin 1) :=
  funext fun a => by
    match a with
    | ⟨0, _⟩ => exact Fin.ext (by have h : (y 0).val < 1 := (y 0).isLt; show (y 0).val = 0; omega)

/-- The first grid point stores the chunk's product into the accumulator. -/
theorem scratch_A (c : Dev nD) (i : grid0.Coords) (arg1 : Memref sig .tc .smem S1 .i32) (harg1 : arg1.IsWhole) (arg2 : Memref sig .tc .vmem S2048x1024 .f32) (harg2 : arg2.IsWhole) (arg3 : Memref sig .tc .vmem S20x2048 .f32) (harg3 : arg3.IsWhole) (arg4 : Memref sig .tc .vmem S20x1 .f32) (harg4 : arg4.IsWhole) (arg5 : Memref sig .tc .vmem S20x1024 .f32) (harg5 : arg5.IsWhole) (arg6 : Memref sig .tc .vmem S20x1024 .f32) (harg6 : arg6.IsWhole) (hc0 : cond0_0 i) (hc1 : ¬cond0_1 i) (hc2 : ¬cond0_2 i) (x0 : Vec F S1 .i32) (x1 : Vec F S2048x1024 .f32) (x2 : Vec F S20x2048 .f32) (x3 : Vec F S20x1 .f32) :
    sout0_A_0 c i arg1 harg1 arg2 harg2 arg3 harg3 arg4 harg4 arg5 harg5 arg6 harg6 hc0 hc1 hc2 x0 x1 x2 x3 = k0_pay2 x2 x1 := by
  unfold sout0_A_0
  rw [View.read_writes_eq_canon _ _ _ (scover0_A_0 c i arg1 harg1 arg2 harg2 arg3 harg3 arg4 harg4 arg5 harg5 arg6 harg6 hc0 hc1 hc2 x0 x1 x2 x3)]
  unfold kernelRun0_A
  dsimp only
  rw [View.canon_unit_zero hz]
  simp only [View.readAt_eq_ld, harg2.read_unread, harg3.read_unread, View.ld_unit_zero (S := S20x2048) hz,
    View.ld_unit_zero (S := S2048x1024) hz]

/-- A middle grid point adds the chunk's product to what the accumulator held. -/
theorem scratch_B (c : Dev nD) (i : grid0.Coords) (arg1 : Memref sig .tc .smem S1 .i32) (harg1 : arg1.IsWhole) (arg2 : Memref sig .tc .vmem S2048x1024 .f32) (harg2 : arg2.IsWhole) (arg3 : Memref sig .tc .vmem S20x2048 .f32) (harg3 : arg3.IsWhole) (arg4 : Memref sig .tc .vmem S20x1 .f32) (harg4 : arg4.IsWhole) (arg5 : Memref sig .tc .vmem S20x1024 .f32) (harg5 : arg5.IsWhole) (arg6 : Memref sig .tc .vmem S20x1024 .f32) (harg6 : arg6.IsWhole) (hc0 : ¬cond0_0 i) (hc1 : cond0_1 i) (hc2 : ¬cond0_2 i) (x0 : Vec F S1 .i32) (x1 : Vec F S2048x1024 .f32) (x2 : Vec F S20x2048 .f32) (x3 : Vec F S20x1 .f32) (xs0 : Vec F S20x1024 .f32) :
    sout0_B_0 c i arg1 harg1 arg2 harg2 arg3 harg3 arg4 harg4 arg5 harg5 arg6 harg6 hc0 hc1 hc2 x0 x1 x2 x3 xs0 = k0_pay3 x2 x1 xs0 := by
  unfold sout0_B_0
  rw [View.read_writes_eq_canon _ _ _ (scover0_B_0 c i arg1 harg1 arg2 harg2 arg3 harg3 arg4 harg4 arg5 harg5 arg6 harg6 hc0 hc1 hc2 x0 x1 x2 x3 xs0)]
  unfold kernelRun0_B
  dsimp only
  rw [View.canon_unit_zero hz]
  simp only [View.readAt_eq_ld, harg2.read_unread, harg3.read_unread, harg6.read_unread, View.ld_unit_zero (S := S20x2048) hz,
    View.ld_unit_zero (S := S2048x1024) hz, View.ld_unit_zero (S := S20x1024) hz]

/-- The last grid point adds its chunk's product in the same way, -/
theorem scratch_C (c : Dev nD) (i : grid0.Coords) (arg1 : Memref sig .tc .smem S1 .i32) (harg1 : arg1.IsWhole) (arg2 : Memref sig .tc .vmem S2048x1024 .f32) (harg2 : arg2.IsWhole) (arg3 : Memref sig .tc .vmem S20x2048 .f32) (harg3 : arg3.IsWhole) (arg4 : Memref sig .tc .vmem S20x1 .f32) (harg4 : arg4.IsWhole) (arg5 : Memref sig .tc .vmem S20x1024 .f32) (harg5 : arg5.IsWhole) (arg6 : Memref sig .tc .vmem S20x1024 .f32) (harg6 : arg6.IsWhole) (hc0 : ¬cond0_0 i) (hc1 : cond0_1 i) (hc2 : cond0_2 i) (x0 : Vec F S1 .i32) (x1 : Vec F S2048x1024 .f32) (x2 : Vec F S20x2048 .f32) (x3 : Vec F S20x1 .f32) (xs0 : Vec F S20x1024 .f32) :
    sout0_C_0 c i arg1 harg1 arg2 harg2 arg3 harg3 arg4 harg4 arg5 harg5 arg6 harg6 hc0 hc1 hc2 x0 x1 x2 x3 xs0 = k0_pay3 x2 x1 xs0 := by
  unfold sout0_C_0
  rw [View.read_writes_eq_canon _ _ _ (scover0_C_0 c i arg1 harg1 arg2 harg2 arg3 harg3 arg4 harg4 arg5 harg5 arg6 harg6 hc0 hc1 hc2 x0 x1 x2 x3 xs0)]
  unfold kernelRun0_C
  dsimp only
  sl_unfold_words
  rw [View.canon_unit_zero hz]
  simp only [View.readAt_eq_ld, harg2.read_unread, harg3.read_unread, harg6.read_unread, View.ld_unit_zero (S := S20x2048) hz,
    View.ld_unit_zero (S := S2048x1024) hz, View.ld_unit_zero (S := S20x1024) hz]

/-- and then stores into the output block the masked, biased read-back of that sum: the task word is the one
    element of its buffer, the accumulator is read after the addition was stored. -/
theorem out_C (c : Dev nD) (i : grid0.Coords) (arg1 : Memref sig .tc .smem S1 .i32) (harg1 : arg1.IsWhole) (arg2 : Memref sig .tc .vmem S2048x1024 .f32) (harg2 : arg2.IsWhole) (arg3 : Memref sig .tc .vmem S20x2048 .f32) (harg3 : arg3.IsWhole) (arg4 : Memref sig .tc .vmem S20x1 .f32) (harg4 : arg4.IsWhole) (arg5 : Memref sig .tc .vmem S20x1024 .f32) (harg5 : arg5.IsWhole) (arg6 : Memref sig .tc .vmem S20x1024 .f32) (harg6 : arg6.IsWhole) (hc0 : ¬cond0_0 i) (hc1 : cond0_1 i) (hc2 : cond0_2 i) (x0 : Vec F S1 .i32) (x1 : Vec F S2048x1024 .f32) (x2 : Vec F S20x2048 .f32) (x3 : Vec F S20x1 .f32) (xs0 : Vec F S20x1024 .f32) :
    out0_C_4 c i arg1 harg1 arg2 harg2 arg3 harg3 arg4 harg4 arg5 harg5 arg6 harg6 hc0 hc1 hc2 x0 x1 x2 x3 xs0 = k0_pay4 (x0 (ix1 (0 : Fin 1))) (k0_pay3 x2 x1 xs0) x3 := by
  unfold out0_C_4
  rw [View.read_writes_eq_canon _ _ _ (cover0_C_4 c i arg1 harg1 arg2 harg2 arg3 harg3 arg4 harg4 arg5 harg5 arg6 harg6 hc0 hc1 hc2 x0 x1 x2 x3 xs0)]
  unfold kernelRun0_C
  dsimp only
  sl_unfold_words
  rw [View.canon_unit_zero hz, View.readCov_unit_zero (S := S20x1024) _ hz]
  simp only [View.readAt_eq_ld, harg1.read_unread, harg2.read_unread, harg3.read_unread, harg4.read_unread, harg6.read_unread,
    View.ld_unit_zero (S := S20x2048) hz, View.ld_unit_zero (S := S2048x1024) hz, View.ld_unit_zero (S := S20x1024) hz,
    View.ld_unit_zero (S := S20x1) hz]
  refine congrArg (fun z => k0_pay4 z (k0_pay3 x2 x1 xs0) x3) ?_
  rw [View.ld_unit_zero (Val := Elt F) (S := S1) (e := .i32) hz1 inb_S1_S1_0 x0]
  exact congrArg x0 (idx1_eq _)

end Cert.KernelIdeal.Pieces

end
-- ==== Proof.Steps.lean ====
/-
  What the accumulator and the output block hold after each grid point, one point in terms of the one before.

  After the first point the accumulator holds the first chunk's product; after every later point it holds what
  it held before plus that point's chunk product; after the last point the output block holds the masked, biased
  accumulator. These are the three control cases of the body read through the values their stores leave.
-/
import proofs.«134110_g42339787604781_fold_wed_m_270_15_alg».proof.Proof.Pieces

noncomputable section

open Idealize.ShloMosaic Idealize.ShloMosaic.TcCoe Idealize.SL.Sem Idealize.ShloMosaic.ValueIdx
open Idealize.ShloMosaic.Pipeline (Dat)

namespace Cert.KernelIdeal.Steps

open Cert.KernelIdeal Cert.KernelIdeal.Gen

variable {F : FTy → Type} [FloatOps F]
variable (m : (ℓ : Loc nD τ sig) → Buf (Elt F) ℓ)

/-- After the first grid point the accumulator is the first chunk's product. -/
theorem scratch_first (c : Dev nD) (t : Fin cfg0.N) (h0 : t.val % 6 = 0) (h1 : ¬1 ≤ t.val) (h2 : ¬t.val % 6 = 5) :
    (outsAt0 m c t.val t.isLt).2 = k0_pay2 (iblk m c 2 t) (iblk m c 1 t) := by
  rw [outsAt0_A m c t h0 h1 h2]
  dsimp only
  exact Pieces.scratch_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t)

/-- After a middle grid point it is what it was plus that point's chunk product. -/
theorem scratch_mid (c : Dev nD) (t : Fin cfg0.N) (h0 : ¬t.val % 6 = 0) (h1 : 1 ≤ t.val) (h2 : ¬t.val % 6 = 5) :
    (outsAt0 m c t.val t.isLt).2 = k0_pay3 (iblk m c 2 t) (iblk m c 1 t) (outsAt0 m c (t.val - 1) (Nat.lt_of_le_of_lt (Nat.sub_le _ _) t.isLt)).2 := by
  rw [outsAt0_B m c t h0 h1 h2]
  dsimp only
  exact Pieces.scratch_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2

/-- After the last grid point likewise, -/
theorem scratch_last (c : Dev nD) (t : Fin cfg0.N) (h0 : ¬t.val % 6 = 0) (h1 : 1 ≤ t.val) (h2 : t.val % 6 = 5) :
    (outsAt0 m c t.val t.isLt).2 = k0_pay3 (iblk m c 2 t) (iblk m c 1 t) (outsAt0 m c (t.val - 1) (Nat.lt_of_le_of_lt (Nat.sub_le _ _) t.isLt)).2 := by
  rw [outsAt0_C m c t h0 h1 h2]
  dsimp only
  exact Pieces.scratch_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (outsAt0 m c (t.val - 1) (Nat.lt_of_le_of_lt (Nat.sub_le _ _) t.isLt)).2

/-- and the output block then holds the masked, biased accumulator. -/
theorem out_last (c : Dev nD) (t : Fin cfg0.N) (h0 : ¬t.val % 6 = 0) (h1 : 1 ≤ t.val) (h2 : t.val % 6 = 5) :
    (outsAt0 m c t.val t.isLt).1
      = k0_pay4 ((iblk m c 0 t : Vec F S1 .i32) (ix1 (0 : Fin 1))) (k0_pay3 (iblk m c 2 t) (iblk m c 1 t) (outsAt0 m c (t.val - 1) (Nat.lt_of_le_of_lt (Nat.sub_le _ _) t.isLt)).2) (iblk m c 3 t) := by
  rw [outsAt0_C m c t h0 h1 h2]
  dsimp only
  exact Pieces.out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk m c 0 t) (iblk m c 1 t) (iblk m c 2 t) (iblk m c 3 t) (outsAt0 m c (t.val - 1) (Nat.lt_of_le_of_lt (Nat.sub_le _ _) t.isLt)).2

end Cert.KernelIdeal.Steps

end
-- ==== Proof.Blocks.lean ====
/-
  What the region's windows hand the kernel body, in terms of the program's arguments.

  Before the region the program flattens the input to [1024, 12288] and transposes it, transposes the weights,
  turns the bias into a [20, 1] column and the task word into a one-element vector. At grid point t the input
  window's block is rows 2048 t … 2048 t + 2047 of the transposed input, the weight window's block the same
  columns of the transposed weights; the bias, the task word and the output are one block each, at the origin.
  So entry (j, b) of the input block is the flattened input at (b, 2048 t + j), and entry (n, j) of the weight
  block is the weight matrix at (2048 t + j, n).
-/
import proofs.«134110_g42339787604781_fold_wed_m_270_15_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## What the region finds in its four input arrays -/

/-- The flattened input. -/
abbrev xflat (c : Dev nD) : S1024x12288.Idx → Elt F .f32 :=
  shapeCast S1024x12288 (m ((c.tc : Thread nD τ).loc main_arg0)) shapeCasts_S1024x3x64x64_S1024x12288

/-- The region's second operand is the flattened input, transposed. -/
theorem V_v1 (c : Dev nD) : (V m c main_v1 : S12288x1024.Idx → Elt F .f32)
    = transpose S12288x1024 [1, 0] (xflat m c) transposes_S1024x12288_S12288x1024_1_0 := by
  show StableHlo.after hostOps0 (fun b => m (c, b)) (Proc.devRef .tc main_v1) = _
  after_results <;> rfl

/-- Its third operand is the weight matrix, transposed. -/
theorem V_v2 (c : Dev nD) : (V m c main_v2 : S20x12288.Idx → Elt F .f32)
    = transpose S20x12288 [1, 0] (m ((c.tc : Thread nD τ).loc main_arg2)) transposes_S12288x20_S20x12288_1_0 := by
  show StableHlo.after hostOps0 (fun b => m (c, b)) (Proc.devRef .tc main_v2) = _
  after_results <;> rfl

/-- Its fourth operand is the bias as a column. -/
theorem V_v3 (c : Dev nD) : (V m c main_v3 : S20x1.Idx → Elt F .f32)
    = shapeCast S20x1 (m ((c.tc : Thread nD τ).loc main_arg3)) shapeCasts_S20_S20x1 := by
  show StableHlo.after hostOps0 (fun b => m (c, b)) (Proc.devRef .tc main_v3) = _
  after_results <;> rfl

/-- Its first operand is the task word as a one-element vector. -/
theorem V_v4 (c : Dev nD) : (V m c main_v4 : S1.Idx → Elt F .i32)
    = shapeCast S1 (m ((c.tc : Thread nD τ).loc main_arg1)) shapeCasts_S_S1 := by
  show StableHlo.after hostOps0 (fun b => m (c, b)) (Proc.devRef .tc main_v4) = _
  after_results <;> rfl

/-- The transposed input at (k, b) is the flattened input at (b, k). -/
theorem V_v1_apply (c : Dev nD) (k : Fin 12288) (b : Fin 1024) :
    (V m c main_v1 : S12288x1024.Idx → Elt F .f32) (ix2 k b) = xflat m c (ix2 b k) := by
  rw [V_v1]
  exact transpose_ix2_apply (xflat m c) transposes_S1024x12288_S12288x1024_1_0 k b

/-- The transposed weights at (n, k) are the weights at (k, n). -/
theorem V_v2_apply (c : Dev nD) (n : Fin 20) (k : Fin 12288) :
    (V m c main_v2 : S20x12288.Idx → Elt F .f32) (ix2 n k) = m ((c.tc : Thread nD τ).loc main_arg2) (ix2 k n) := by
  rw [V_v2]
  exact transpose_ix2_apply (m ((c.tc : Thread nD τ).loc main_arg2)) transposes_S12288x20_S20x12288_1_0 n k

/-- Row n of the bias column is bias n: the two positions are both n in row-major order. -/
theorem V_v3_apply (c : Dev nD) (n : Fin 20) :
    (V m c main_v3 : S20x1.Idx → Elt F .f32) (ix2 n (0 : Fin 1)) = m ((c.tc : Thread nD τ).loc main_arg3) (ix1 n) := by
  rw [V_v3]
  refine shapeCast_apply _ shapeCasts_S20_S20x1 (ix2 n (0 : Fin 1)) (ix1 n) ?_
  rw [Shape.rowMajor_val_one, Shape.rowMajor_val_two]
  show n.val = n.val * 1 + 0
  omega

/-- The one-element vector holds the task word: both shapes have one position. -/
theorem V_v4_apply (c : Dev nD) :
    (V m c main_v4 : S1.Idx → Elt F .i32) (ix1 (0 : Fin 1)) = m ((c.tc : Thread nD τ).loc main_arg1) ix0 := by
  rw [V_v4]
  refine shapeCast_apply _ shapeCasts_S_S1 (ix1 (0 : Fin 1)) ix0 ?_
  have h0 : (S_.rowMajor ix0).val < 1 := lt_of_lt_of_eq (S_.rowMajor ix0).isLt (by decide)
  rw [Shape.rowMajor_val_one]
  show (S_.rowMajor ix0).val = 0
  omega

/-! ## Where each window's block sits in its array -/

/-- The input window moves down the rows and the weight window along the columns, one block per grid point; the
    bias, task and output windows stay at the origin. -/
theorem idx_facts : ∀ t : Fin cfg0.N, win0_1.index t 0 = t.val ∧ win0_1.index t 1 = 0
    ∧ win0_2.index t 0 = 0 ∧ win0_2.index t 1 = t.val ∧ win0_3.index t 0 = 0 ∧ win0_3.index t 1 = 0
    ∧ win0_0.index t 0 = 0 ∧ win0_4.index t 0 = 0 ∧ win0_4.index t 1 = 0 :=
  (by decide +kernel : ∀ t : Fin grid0.N, _)

/-- Row `j` of the input window's block at point `t` is row `2048 t + j` of the transposed input. -/
theorem iblk1_apply (c : Dev nD) (t : Fin cfg0.N) (j : Fin 2048) (b : Fin 1024) (hk : t.val * 2048 + j.val < 12288) :
    (iblk m c 1 t : Vec F S2048x1024 .f32) (ix2 j b) = (V m c main_v1 : S12288x1024.Idx → Elt F .f32) (ix2 ⟨t.val * 2048 + j.val, hk⟩ b) := by
  have hi := idx_facts t
  unfold iblk
  rw [View.read_apply]
  show V m c main_v1 _ = V m c main_v1 _
  refine congrArg _ (funext fun a => Fin.ext ?_)
  match a with
  | ⟨0, _⟩ => show win0_1.index t 0 * 2048 + 1 * j.val = t.val * 2048 + j.val; rw [hi.1]; omega
  | ⟨1, _⟩ => show win0_1.index t 1 * 1024 + 1 * b.val = b.val; rw [hi.2.1]; omega

/-- Column `j` of the weight window's block at point `t` is column `2048 t + j` of the transposed weights. -/
theorem iblk2_apply (c : Dev nD) (t : Fin cfg0.N) (n : Fin 20) (j : Fin 2048) (hk : t.val * 2048 + j.val < 12288) :
    (iblk m c 2 t : Vec F S20x2048 .f32) (ix2 n j) = (V m c main_v2 : S20x12288.Idx → Elt F .f32) (ix2 n ⟨t.val * 2048 + j.val, hk⟩) := by
  have hi := idx_facts t
  unfold iblk
  rw [View.read_apply]
  show V m c main_v2 _ = V m c main_v2 _
  refine congrArg _ (funext fun a => Fin.ext ?_)
  match a with
  | ⟨0, _⟩ => show win0_2.index t 0 * 20 + 1 * n.val = n.val; rw [hi.2.2.1]; omega
  | ⟨1, _⟩ => show win0_2.index t 1 * 2048 + 1 * j.val = t.val * 2048 + j.val; rw [hi.2.2.2.1]; omega

/-- The bias window's block is the whole bias column at every point. -/
theorem iblk3_apply (c : Dev nD) (t : Fin cfg0.N) (n : Fin 20) :
    (iblk m c 3 t : Vec F S20x1 .f32) (ix2 n (0 : Fin 1)) = (V m c main_v3 : S20x1.Idx → Elt F .f32) (ix2 n (0 : Fin 1)) := by
  have hi := idx_facts t
  unfold iblk
  rw [View.read_apply]
  show V m c main_v3 _ = V m c main_v3 _
  refine congrArg _ (funext fun a => Fin.ext ?_)
  match a with
  | ⟨0, _⟩ => show win0_3.index t 0 * 20 + 1 * n.val = n.val; rw [hi.2.2.2.2.1]; omega
  | ⟨1, _⟩ => show win0_3.index t 1 * 1 + 1 * (0 : Fin 1).val = (0 : Fin 1).val; rw [hi.2.2.2.2.2.1]; rfl

/-- The task window's block is the one task word at every point. -/
theorem iblk0_apply (c : Dev nD) (t : Fin cfg0.N) :
    (iblk m c 0 t : Vec F S1 .i32) (ix1 (0 : Fin 1)) = (V m c main_v4 : S1.Idx → Elt F .i32) (ix1 (0 : Fin 1)) := by
  have hi := idx_facts t
  unfold iblk
  rw [View.read_apply]
  show V m c main_v4 _ = V m c main_v4 _
  refine congrArg _ (funext fun a => Fin.ext ?_)
  match a with
  | ⟨0, _⟩ => show win0_0.index t 0 * 1 + 1 * (0 : Fin 1).val = (0 : Fin 1).val; rw [hi.2.2.2.2.2.2.1]; rfl

end Cert.KernelIdeal.Blocks

end
-- ==== Proof.Spec.lean ====
/-
  The function both programs compute, index by index, on the extended reals.

  With `xf` the input flattened to [1024, 12288], `W` the [12288, 20] weights, `bias` the 20 biases and
  `t` the task word, the result at (b, n) is

      dense b n + bias n   if 2t ≤ n < 2(t+1)   (signed 32-bit comparisons, wrapping arithmetic),
      the constant word 0xD1BA43B7 read as a float   otherwise,

  where `dense b n = ∑ k, xf (b, k) · W (k, n)`. The window's upper end is written `(t+1)·2` by one
  program and `t·2 + 2` by the other; in 32-bit wrapping arithmetic they are one word (`upper_eq`).
-/
import Idealize.ShloMosaic.PureOps.Ideal
import Idealize.ShloMosaic.Lib.ValueIdx

noncomputable section

open scoped BigOperators

namespace Cert.Spec

open Idealize.ShloMosaic Idealize.ShloMosaic.ValueIdx

/-- The flattened input, the weights, the bias and the result, as shapes. -/
abbrev SXF : Shape := ⟨2, ![1024, 12288]⟩
abbrev SW : Shape := ⟨2, ![12288, 20]⟩
abbrev SB : Shape := ⟨1, ![20]⟩
abbrev SO : Shape := ⟨2, ![1024, 20]⟩

/-- `(t + 1) · 2 = t · 2 + 2` on 32-bit words: distributivity in the ring of integers mod 2³². -/
theorem upper_eq (t : BitVec 32) : IntOp.muli (IntOp.addi t 1#32) 2#32 = IntOp.addi (IntOp.muli t 2#32) 2#32 := by
  unfold IntOp.muli IntOp.addi
  rw [BitVec.add_mul]
  rfl

/-- Column `n` is kept when `2t ≤ n` and `n < 2t + 2`, both signed, `lo` and `hi` the two ends as words. -/
def keepAt (lo hi : BitVec 32) (n : Fin 20) : BitVec 1 :=
  IntOp.andi (IntOp.cmpi .sge (BitVec.ofNat 32 n.val) lo) (IntOp.cmpi .slt (BitVec.ofNat 32 n.val) hi)

/-- The kept columns of task `t`. -/
def keep (t : BitVec 32) (n : Fin 20) : BitVec 1 :=
  keepAt (IntOp.muli t 2#32) (IntOp.addi (IntOp.muli t 2#32) 2#32) n

/-- The linear layer without its bias: row `b` of the flattened input against column `n` of the weights. -/
def dense (xf : SXF.Idx → EReal) (W : SW.Idx → EReal) (b : Fin 1024) (n : Fin 20) : EReal :=
  ∑ k : Fin 12288, xf (ix2 b k) * W (ix2 k n)

/-- The result: the biased linear layer on the kept columns, the fill constant elsewhere. -/
def out (xf : SXF.Idx → EReal) (t : BitVec 32) (W : SW.Idx → EReal) (bias : SB.Idx → EReal) : SO.Idx → EReal :=
  fun i => Scalar.select (keep t (i 1)) (dense xf W (i 0) (i 1) + bias (ix1 (i 1))) (Ideal.ofBits .f32 0xD1BA43B7#32)

end Cert.Spec

end
-- ==== Proof.PayAt.lean ====
/-
  The kernel's stored values, one entry at a time.

  The kernel walks the 12288 contraction positions in six chunks of 2048. At each step it multiplies the
  [20, 2048] chunk of the transposed weights by the [2048, 1024] chunk of the transposed input; entry
  (n, b) of that product is the sum over the chunk's 2048 positions j of w (n, j) · x (j, b). The first
  step stores the product, every later step stores the running value plus the product, and the last
  step stores, at (n, b), the running value plus the bias of row n when 2t ≤ n < 2t + 2 (signed 32-bit
  comparisons of the row number with the two ends of the task's window, the ends computed with wrapping
  arithmetic) and the fill constant otherwise.

  The matrix product is read through the contraction's index set: it has one axis of extent 2048, so a
  sum over it is a sum over Fin 2048, and the operands are read at (row of the result, j) and
  (j, column of the result). The casts of a vector to its own shape are the identity; the bias column
  [20, 1] spread over 1024 columns is read at (n, 0).
-/
import proofs.«134110_g42339787604781_fold_wed_m_270_15_alg».proof.Proof.Gen.KernelIdeal.Skeleton
import proofs.«134110_g42339787604781_fold_wed_m_270_15_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-- The left operand's row coordinate is the result's row. -/
theorem lhs_row (i : S20x1024.Idx) (q : dot_S20x2048_S2048x1024_S20x1024_1_0_0_1_n_n.contr.Idx) :
    (dot_S20x2048_S2048x1024_S20x1024_1_0_0_1_n_n.lhsIdx i q 0).val = (i 0).val := by
  unfold DotDims.lhsIdx
  rw [dif_neg (show ¬(0 : Fin S20x2048.rank) ∈ dot_S20x2048_S2048x1024_S20x1024_1_0_0_1_n_n.lhsBatch by decide), dif_pos (show (0 : Fin S20x2048.rank) ∈ dot_S20x2048_S2048x1024_S20x1024_1_0_0_1_n_n.lhsNonContracting by decide)]
  rfl
/-- The left operand's column coordinate is the contraction coordinate. -/
theorem lhs_col (i : S20x1024.Idx) (q : dot_S20x2048_S2048x1024_S20x1024_1_0_0_1_n_n.contr.Idx) :
    (dot_S20x2048_S2048x1024_S20x1024_1_0_0_1_n_n.lhsIdx i q 1).val = (q ⟨0, by decide⟩).val :=
  dot_S20x2048_S2048x1024_S20x1024_1_0_0_1_n_n.lhsIdx_val_of_single rfl i q
/-- The right operand's row coordinate is the contraction coordinate. -/
theorem rhs_row (i : S20x1024.Idx) (q : dot_S20x2048_S2048x1024_S20x1024_1_0_0_1_n_n.contr.Idx) :
    (dot_S20x2048_S2048x1024_S20x1024_1_0_0_1_n_n.rhsIdx i q 0).val = (q ⟨0, by decide⟩).val :=
  dot_S20x2048_S2048x1024_S20x1024_1_0_0_1_n_n.rhsIdx_val_of_single rfl i q
/-- The right operand's column coordinate is the result's column. -/
theorem rhs_col (i : S20x1024.Idx) (q : dot_S20x2048_S2048x1024_S20x1024_1_0_0_1_n_n.contr.Idx) :
    (dot_S20x2048_S2048x1024_S20x1024_1_0_0_1_n_n.rhsIdx i q 1).val = (i 1).val := by
  unfold DotDims.rhsIdx
  rw [dif_neg (show ¬(1 : Fin S2048x1024.rank) ∈ dot_S20x2048_S2048x1024_S20x1024_1_0_0_1_n_n.rhsBatch by decide), dif_pos (show (1 : Fin S2048x1024.rank) ∈ dot_S20x2048_S2048x1024_S20x1024_1_0_0_1_n_n.rhsNonContracting by decide)]
  rfl

/-- The matrix product into the zero accumulator, at (n, b): the sum over the 2048 contraction positions. -/
theorem matmul_zero_apply (w : FVec Ideal S20x2048 .f32) (x : FVec Ideal S2048x1024 .f32) (n : Fin 20) (b : Fin 1024) :
    matmul dot_S20x2048_S2048x1024_S20x1024_1_0_0_1_n_n none w x (constant (F := Ideal) S20x1024 .f32 0x00000000#32) (ix2 n b)
      = ∑ j : Fin 2048, w (ix2 n j) * x (ix2 j b) := by
  refine (Ideal.matmul_constant_zero_apply dot_S20x2048_S2048x1024_S20x1024_1_0_0_1_n_n none w x (ix2 n b)).trans ?_
  rw [← Equiv.sum_comp (contrEquiv1 dot_S20x2048_S2048x1024_S20x1024_1_0_0_1_n_n 2048 rfl rfl).symm]
  refine Finset.sum_congr rfl fun k _ => ?_
  have hk := contrEquiv1_symm_val dot_S20x2048_S2048x1024_S20x1024_1_0_0_1_n_n 2048 rfl rfl k
  have el : dot_S20x2048_S2048x1024_S20x1024_1_0_0_1_n_n.lhsIdx (ix2 n b) ((contrEquiv1 dot_S20x2048_S2048x1024_S20x1024_1_0_0_1_n_n 2048 rfl rfl).symm k) = ix2 n k := funext fun a => Fin.ext (by
    match a with
    | ⟨0, _⟩ => exact lhs_row _ _
    | ⟨1, _⟩ => exact (lhs_col _ _).trans hk)
  have er : dot_S20x2048_S2048x1024_S20x1024_1_0_0_1_n_n.rhsIdx (ix2 n b) ((contrEquiv1 dot_S20x2048_S2048x1024_S20x1024_1_0_0_1_n_n 2048 rfl rfl).symm k) = ix2 k b := funext fun a => Fin.ext (by
    match a with
    | ⟨0, _⟩ => exact (rhs_row _ _).trans hk
    | ⟨1, _⟩ => exact rhs_col _ _)
  rw [el, er]

/-- The first chunk's product: the 2048-term sum at (n, b). -/
theorem pay1_apply (w : FVec Ideal S20x2048 .f32) (x : FVec Ideal S2048x1024 .f32) (n : Fin 20) (b : Fin 1024) :
    k0_pay1 (F := Ideal) w x (ix2 n b) = ∑ j : Fin 2048, w (ix2 n j) * x (ix2 j b) := by
  unfold k0_pay1
  rw [shapeCast_self, shapeCast_self]
  exact matmul_zero_apply w x n b

/-- What the first grid step stores: the same sum. -/
theorem pay2_apply (w : FVec Ideal S20x2048 .f32) (x : FVec Ideal S2048x1024 .f32) (n : Fin 20) (b : Fin 1024) :
    k0_pay2 (F := Ideal) w x (ix2 n b) = ∑ j : Fin 2048, w (ix2 n j) * x (ix2 j b) := by
  unfold k0_pay2
  rw [shapeCast_self]
  exact pay1_apply w x n b

/-- What a later grid step stores: the running value plus the chunk's sum. -/
theorem pay3_apply (w : FVec Ideal S20x2048 .f32) (x : FVec Ideal S2048x1024 .f32) (acc : FVec Ideal S20x1024 .f32) (n : Fin 20) (b : Fin 1024) :
    k0_pay3 (F := Ideal) w x acc (ix2 n b) = acc (ix2 n b) + ∑ j : Fin 2048, w (ix2 n j) * x (ix2 j b) := by
  unfold k0_pay3
  rw [shapeCast_self, addf_apply, pay1_apply]

/-- What the last grid step stores: on the task's window of rows the accumulated value plus the row's bias,
    elsewhere the fill constant. The row number of (n, b) is n; the window's ends are the words 2t and 2t + 2. -/
theorem pay4_apply (t : BitVec 32) (acc : FVec Ideal S20x1024 .f32) (bias : FVec Ideal S20x1 .f32) (n : Fin 20) (b : Fin 1024) :
    k0_pay4 (F := Ideal) t acc bias (ix2 n b) = Scalar.select (Cert.Spec.keep t n) (acc (ix2 n b) + bias (ix2 n (0 : Fin 1))) (Ideal.ofBits .f32 0xD1BA43B7#32) := by
  unfold k0_pay4
  -- the row counter at (n, b) is the word n
  have hi : iota .tc S20x1024 32 [0] iota_S20x1024_d0_w32 (ix2 n b) = BitVec.ofNat 32 n.val :=
    iota_single_apply .tc S20x1024 32 0 iota_S20x1024_d0_w32 (ix2 n b)
  -- the bias column, repeated along the 1024 columns, is read at (n, 0)
  have hb : broadcastTo S20x1024 (shapeCast S20x1 bias shapeCasts_S20x1_S20x1) broadcasts_S20x1_S20x1024 (ix2 n b) = bias (ix2 n (0 : Fin 1)) := by
    rw [shapeCast_self]
    exact broadcastTo_apply bias broadcasts_S20x1_S20x1024 (ix2 n b) (ix2 n (0 : Fin 1)) (fun a => match a with
      | ⟨0, _⟩ => by show n.val = if (20 : Nat) = 1 then 0 else n.val; rw [if_neg (by decide)]
      | ⟨1, _⟩ => by show 0 = if (1 : Nat) = 1 then 0 else b.val; rw [if_pos rfl])
  rw [select_apply]
  -- the comparisons, the conjunction, the sum and the two splats act entry by entry
  show Scalar.select
      (IntOp.andi
        (IntOp.cmpi .sge (iota .tc S20x1024 32 [0] iota_S20x1024_d0_w32 (ix2 n b)) (IntOp.muli t 2#32))
        (IntOp.cmpi .slt (iota .tc S20x1024 32 [0] iota_S20x1024_d0_w32 (ix2 n b)) (IntOp.addi (IntOp.muli t 2#32) 2#32)))
      (acc (ix2 n b) + broadcastTo S20x1024 (shapeCast S20x1 bias shapeCasts_S20x1_S20x1) broadcasts_S20x1_S20x1024 (ix2 n b))
      (Ideal.ofBits .f32 0xD1BA43B7#32) = _
  rw [hi, hb]
  rfl

end Cert.KernelIdeal.PayAt

end
-- ==== Proof.LibChunkSum.lean ====
/-
  A finite sum taken chunk by chunk, in any commutative monoid.

  A function on `Fin N` is extended by zero to all naturals (`ext0`); the sum over `Fin N` is then the
  sum of the extension over `range N` (`sum_eq_range`), and a range sum up to `a + K` is the range sum
  up to `a` plus the `K` terms of the next chunk (`range_add_chunk`). Only commutativity and
  associativity of `+` are used, so the statements hold on the extended reals, infinities included.
-/
import Idealize.ShloMosaic.PureOps.Ideal

open scoped BigOperators

namespace Cert.LibChunkSum

variable {M : Type*} [AddCommMonoid M]

/-- `f` extended by zero past `N`. -/
def ext0 {N : ℕ} (f : Fin N → M) (k : ℕ) : M := if h : k < N then f ⟨k, h⟩ else 0

/-- Below `N` the extension is `f`. -/
theorem ext0_of_lt {N : ℕ} (f : Fin N → M) {k : ℕ} (h : k < N) : ext0 f k = f ⟨k, h⟩ := dif_pos h

/-- The sum over `Fin N` is the sum of the extension over `range N`. -/
theorem sum_eq_range {N : ℕ} (f : Fin N → M) : ∑ k : Fin N, f k = ∑ k ∈ Finset.range N, ext0 f k := by
  rw [← Fin.sum_univ_eq_sum_range (fun k => ext0 f k) N]
  exact Finset.sum_congr rfl fun k _ => (ext0_of_lt f k.isLt).symm

/-- One more chunk: the range sum up to `a + K` is the one up to `a` plus the chunk's `K` terms. -/
theorem range_add_chunk {N : ℕ} (f : Fin N → M) (a K : ℕ) :
    ∑ k ∈ Finset.range (a + K), ext0 f k
      = ∑ k ∈ Finset.range a, ext0 f k + ∑ j : Fin K, ext0 f (a + j.val) := by
  rw [Finset.sum_range_add, Fin.sum_univ_eq_sum_range (fun j => ext0 f (a + j)) K]

end Cert.LibChunkSum
-- ==== Proof.Accum.lean ====
/-
  The accumulator is a running sum of the contraction, and the output block is the specification transposed.

  Fix an output row n (a class column) and a lane b (a batch row). The contraction's k-th term is
  W (k, n) · xf (b, k). The chunk product of grid point t at (n, b) is the sum of terms 2048 t … 2048 t + 2047,
  because the point's weight block holds columns 2048 t + j of the transposed weights and its input block holds
  rows 2048 t + j of the transposed input. So after point p the accumulator at (n, b) is the sum of the first
  2048 (p + 1) terms — by induction on p, each step appending one chunk to a range sum — and after the last
  point it is the whole contraction. Only commutativity and associativity of + and commutativity of · on the
  extended reals are used: no finiteness of the inputs is needed. The last point then stores, at (n, b), the
  specification's value at (b, n).
-/
import proofs.«134110_g42339787604781_fold_wed_m_270_15_alg».proof.Proof.Steps
import proofs.«134110_g42339787604781_fold_wed_m_270_15_alg».proof.Proof.Blocks
import proofs.«134110_g42339787604781_fold_wed_m_270_15_alg».proof.Proof.PayAt
import proofs.«134110_g42339787604781_fold_wed_m_270_15_alg».proof.Proof.LibChunkSum
import proofs.«134110_g42339787604781_fold_wed_m_270_15_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.LibChunkSum

variable (m : (ℓ : Loc nD τ sig) → Buf (Elt Ideal) ℓ)

/-- The weights and the flattened input, and a grid point's weight and input blocks, as arrays of extended reals. -/
abbrev Wr (c : Dev nD) : S12288x20.Idx → EReal := m ((c.tc : Thread nD τ).loc main_arg2)
abbrev Xr (c : Dev nD) : S1024x12288.Idx → EReal := Blocks.xflat m c
abbrev wblk (c : Dev nD) (t : Fin cfg0.N) : S20x2048.Idx → EReal := iblk m c 2 t
abbrev xblk (c : Dev nD) (t : Fin cfg0.N) : S2048x1024.Idx → EReal := iblk m c 1 t

/-- The k-th term of the contraction for class column n and batch row b. -/
def term (c : Dev nD) (n : Fin 20) (b : Fin 1024) : Fin 12288 → EReal := fun k =>
  Wr m c (ix2 k n) * Xr m c (ix2 b k)

/-- The sum of the first 2048 (p + 1) terms. -/
def partialAt (c : Dev nD) (p : ℕ) (n : Fin 20) (b : Fin 1024) : EReal :=
  ∑ k ∈ Finset.range ((p + 1) * 2048), ext0 (term m c n b) k

/-- The same as a [20, 1024] block. -/
def partialSum (c : Dev nD) (p : ℕ) : Vec Ideal S20x1024 .f32 := fun i => partialAt m c p (i 0) (i 1)

/-- The chunk product of grid point t at (n, b) is terms 2048 t … 2048 t + 2047 of the contraction. -/
theorem chunk_eq (c : Dev nD) (t : Fin cfg0.N) (n : Fin 20) (b : Fin 1024) :
    ∑ j : Fin 2048, wblk m c t (ix2 n j) * xblk m c t (ix2 j b)
      = ∑ j : Fin 2048, ext0 (term m c n b) (t.val * 2048 + j.val) := by
  have hN : t.val < 6 := lt_of_lt_of_eq t.isLt (show cfg0.N = 6 from N_0)
  refine Finset.sum_congr rfl fun j _ => ?_
  have hk : t.val * 2048 + j.val < 12288 := by have := j.isLt; omega
  have e2 : wblk m c t (ix2 n j) = Wr m c (ix2 ⟨t.val * 2048 + j.val, hk⟩ n) :=
    (Blocks.iblk2_apply m c t n j hk).trans (Blocks.V_v2_apply m c n ⟨t.val * 2048 + j.val, hk⟩)
  have e1 : xblk m c t (ix2 j b) = Xr m c (ix2 b ⟨t.val * 2048 + j.val, hk⟩) :=
    (Blocks.iblk1_apply m c t j b hk).trans (Blocks.V_v1_apply m c ⟨t.val * 2048 + j.val, hk⟩ b)
  rw [e2, e1, ext0_of_lt _ hk]
  rfl

/-- The first chunk is the first partial sum. -/
theorem partialAt_zero (c : Dev nD) (n : Fin 20) (b : Fin 1024) :
    partialAt m c 0 n b = ∑ j : Fin 2048, ext0 (term m c n b) (0 * 2048 + j.val) := by
  unfold partialAt
  rw [show (0 + 1) * 2048 = 0 + 2048 from rfl, range_add_chunk, Finset.range_zero, Finset.sum_empty, zero_add]

/-- Appending chunk p + 1 to the p-th partial sum gives the next one. -/
theorem partialAt_succ (c : Dev nD) (p : ℕ) (n : Fin 20) (b : Fin 1024) :
    partialAt m c (p + 1) n b = partialAt m c p n b + ∑ j : Fin 2048, ext0 (term m c n b) ((p + 1) * 2048 + j.val) := by
  unfold partialAt
  rw [show (p + 1 + 1) * 2048 = (p + 1) * 2048 + 2048 by omega, range_add_chunk]

/-- The sixth partial sum is the whole contraction, which is the specification's linear layer. -/
theorem partialAt_last (c : Dev nD) (n : Fin 20) (b : Fin 1024) :
    partialAt m c 5 n b = Cert.Spec.dense (Xr m c) (Wr m c) b n := by
  unfold partialAt
  rw [show (5 + 1) * 2048 = 12288 from rfl, ← sum_eq_range]
  unfold Cert.Spec.dense term
  exact Finset.sum_congr rfl fun k _ => mul_comm _ _

/-- THE INVARIANT: after grid point p the accumulator holds the p-th partial sum of the contraction. -/
theorem scratch_eq (c : Dev nD) : ∀ (p : ℕ) (h : p < cfg0.N), (outsAt0 m c p h).2 = partialSum m c p
  | 0, h => by
    refine (Steps.scratch_first m c ⟨0, h⟩ rfl (show ¬1 ≤ 0 by omega) (show ¬0 % 6 = 5 by omega)).trans ?_
    funext i
    obtain ⟨n, b, rfl⟩ : ∃ (n : Fin 20) (b : Fin 1024), i = ix2 n b := ⟨i 0, i 1, eq_ix2 i⟩
    refine (PayAt.pay2_apply (iblk m c 2 ⟨0, h⟩) (iblk m c 1 ⟨0, h⟩) n b).trans ?_
    refine (chunk_eq m c ⟨0, h⟩ n b).trans ?_
    exact (partialAt_zero m c n b).symm
  | p + 1, h => by
    have hN : cfg0.N = 6 := N_0
    have key : (outsAt0 m c (p + 1) h).2
        = k0_pay3 (iblk m c 2 ⟨p + 1, h⟩) (iblk m c 1 ⟨p + 1, h⟩) (outsAt0 m c p (Nat.lt_of_succ_lt h)).2 := by
      by_cases h2 : (p + 1) % 6 = 5
      · exact Steps.scratch_last m c ⟨p + 1, h⟩ (show ¬(p + 1) % 6 = 0 by omega) (show 1 ≤ p + 1 by omega) h2
      · exact Steps.scratch_mid m c ⟨p + 1, h⟩ (show ¬(p + 1) % 6 = 0 by omega) (show 1 ≤ p + 1 by omega) h2
    rw [key, scratch_eq c p (Nat.lt_of_succ_lt h)]
    funext i
    obtain ⟨n, b, rfl⟩ : ∃ (n : Fin 20) (b : Fin 1024), i = ix2 n b := ⟨i 0, i 1, eq_ix2 i⟩
    refine (PayAt.pay3_apply (iblk m c 2 ⟨p + 1, h⟩) (iblk m c 1 ⟨p + 1, h⟩) (partialSum m c p) n b).trans ?_
    refine (congrArg (fun z : EReal => partialAt m c p n b + z) (chunk_eq m c ⟨p + 1, h⟩ n b)).trans ?_
    exact (partialAt_succ m c p n b).symm

/-- The specification's value at (b, n), as the entry (n, b) of a [20, 1024] block: the result, transposed. -/
def resultAt (c : Dev nD) (n : Fin 20) (b : Fin 1024) : EReal :=
  Cert.Spec.out (Xr m c) (m ((c.tc : Thread nD τ).loc main_arg1) ix0)
    (Wr m c) (m ((c.tc : Thread nD τ).loc main_arg3)) (ix2 b n)

/-- The transposed result as a block. -/
def resultT (c : Dev nD) : Vec Ideal S20x1024 .f32 := fun i => resultAt m c (i 0) (i 1)

/-- After the last grid point the output block holds the transposed result. -/
theorem out_final (c : Dev nD) (h : 5 < cfg0.N) : (outsAt0 m c 5 h).1 = resultT m c := by
  have e := Steps.out_last m c ⟨5, h⟩ (show ¬5 % 6 = 0 by omega) (show 1 ≤ 5 by omega) rfl
  rw [← Steps.scratch_last m c ⟨5, h⟩ (show ¬5 % 6 = 0 by omega) (show 1 ≤ 5 by omega) rfl] at e
  refine e.trans ?_
  rw [show (outsAt0 m c (⟨5, h⟩ : Fin cfg0.N).val (⟨5, h⟩ : Fin cfg0.N).isLt).2 = partialSum m c 5 from scratch_eq m c 5 h]
  funext i
  obtain ⟨n, b, rfl⟩ : ∃ (n : Fin 20) (b : Fin 1024), i = ix2 n b := ⟨i 0, i 1, eq_ix2 i⟩
  refine (PayAt.pay4_apply ((iblk m c 0 ⟨5, h⟩ : Vec Ideal S1 .i32) (ix1 (0 : Fin 1))) (partialSum m c 5) (iblk m c 3 ⟨5, h⟩) n b).trans ?_
  have ht : (iblk m c 0 ⟨5, h⟩ : Vec Ideal S1 .i32) (ix1 (0 : Fin 1)) = m ((c.tc : Thread nD τ).loc main_arg1) ix0 :=
    (Blocks.iblk0_apply m c ⟨5, h⟩).trans (Blocks.V_v4_apply m c)
  have hb : (iblk m c 3 ⟨5, h⟩ : Vec Ideal S20x1 .f32) (ix2 n (0 : Fin 1)) = m ((c.tc : Thread nD τ).loc main_arg3) (ix1 n) :=
    (Blocks.iblk3_apply m c ⟨5, h⟩ n).trans (Blocks.V_v3_apply m c n)
  rw [ht, hb, show partialSum m c 5 (ix2 n b) = Cert.Spec.dense (Xr m c) (Wr m c) b n from partialAt_last m c n b]
  rfl

end Cert.KernelIdeal.Accum

end
-- ==== Proof.KernelRun.lean ====
/-
  The kernel's program, run: its result array is the specification.

  The output window's one block is the whole [20, 1024] array and is written back once, after the last grid
  point, when it holds the transposed result; so the region leaves the transposed result in that array. The one
  host operation after the region transposes it, and a matrix transposed twice is the matrix: the program's
  result at (b, n) is the specification at (b, n).
-/
import proofs.«134110_g42339787604781_fold_wed_m_270_15_alg».proof.Proof.Accum
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen

variable (m : (ℓ : Loc nD τ sig) → Buf (Elt Ideal) ℓ) (ρ : Dev nD → PrngReg)

/-- The one write-back, after the last grid point, writes the transposed result: block (0, 0) of the
    [20, 1024] array read through zero offsets is the array. -/
theorem flushed_eq (c : Dev nD) (t : Fin cfg0.N) (hf : (cfg0.win 4).flush t = true) :
    (dats m 0 c).flushed 4 t = ((cfg0.win 4).blk t).view.read (Elt Ideal) (Accum.resultT m c) := by
  have hN : cfg0.N = 6 := N_0
  have h5 : t.val = 5 := by have := (flush0_4 t).mp hf; have := t.isLt; omega
  obtain rfl : t = t0_5 := Fin.ext h5
  show (cfg0.win 4).cut (grid0.coords t0_5) ((dats m 0 c).after 4 t0_5) = _
  rw [after0_4]
  rw [show (outsAt0 m c t0_5.val t0_5.isLt).1 = Accum.resultT m c from Accum.out_final m c t0_5.isLt]
  have hz' : (fun a => win0_4.index t0_5 a * main_v5.ty.shape.size a) = fun _ => 0 := funext fun a => by fin_cases a <;> decide
  exact (Memref.read_access_unit_zero (Elt Ideal) main_v5 hz' (fun a => by rw [congrFun hz' a]; simp) (Accum.resultT m c)).symm

/-- So the region leaves the transposed result in its output array: the last point's block covers it. -/
theorem final (c : Dev nD) : (dats m 0 c).arrAt 4 cfg0.N = Accum.resultT m c :=
  (dats m 0 c).arrAt_eq_of_cover 4 (Accum.resultT m c) (flushed_eq m c) fun i =>
    ⟨t0_5, (flush0_4 t0_5).mpr rfl, by
      show i ∈ ((View.whole main_v5).slice (win0_4.rect t0_5)).set
      rw [View.set_slice_whole, Rect.mem_set_unit]
      intro a
      have h0 : (i 0 : Nat) < 20 := (i 0).isLt
      have h1 : (i 1 : Nat) < 1024 := (i 1).isLt
      match a with
      | ⟨0, _⟩ => show win0_4.index t0_5 0 * win0_4.size 0 ≤ (i 0 : Nat) ∧ (i 0 : Nat) < win0_4.index t0_5 0 * win0_4.size 0 + win0_4.xsize (grid0.coords t0_5) 0
                  rw [show win0_4.index t0_5 0 * win0_4.size 0 = 0 from by decide +kernel, show win0_4.xsize (grid0.coords t0_5) 0 = 20 from by decide +kernel]; omega
      | ⟨1, _⟩ => show win0_4.index t0_5 1 * win0_4.size 1 ≤ (i 1 : Nat) ∧ (i 1 : Nat) < win0_4.index t0_5 1 * win0_4.size 1 + win0_4.xsize (grid0.coords t0_5) 1
                  rw [show win0_4.index t0_5 1 * win0_4.size 1 = 0 from by decide +kernel, show win0_4.xsize (grid0.coords t0_5) 1 = 1024 from by decide +kernel]; omega⟩

/-- The host operation after the region transposes that array into the program's result. -/
theorem tail_eq (c : Dev nD) :
    Pipeline.afterTail₀ cfgs (dats m) 0 (V0 m) [hostOps1] c main_v6
      = transpose S1024x20 [1, 0] (Accum.resultT m c) transposes_S20x1024_S1024x20_1_0 := by
  unfold Pipeline.afterTail₀
  show StableHlo.after hostOps1 _ (Proc.devRef .tc main_v6) = _
  after_results
  refine congrArg (fun z => transpose S1024x20 [1, 0] z transposes_S20x1024_S1024x20_1_0) ?_
  exact (Pipeline.withArrays_arr spec0 launch0.win.arr_inj c _ _ 4).trans (final m c)

/-- The program's result array: the specification of its arguments. -/
def result (c : Dev nD) : Buf (Elt Ideal) ((c.tc : Thread nD τ).loc main_v6) :=
  Cert.Spec.out (Blocks.xflat m c) (m ((c.tc : Thread nD τ).loc main_arg1) ix0)
    (m ((c.tc : Thread nD τ).loc main_arg2)) (m ((c.tc : Thread nD τ).loc main_arg3))

/-- The transposed result, transposed, is the result: entry (b, n) reads the block at (n, b). -/
theorem result_eq (c : Dev nD) :
    transpose S1024x20 [1, 0] (Accum.resultT m c) transposes_S20x1024_S1024x20_1_0 = result m c := by
  funext i
  obtain ⟨b, n, rfl⟩ : ∃ (b : Fin 1024) (n : Fin 20), i = ix2 b n := ⟨i 0, i 1, eq_ix2 i⟩
  exact (transpose_ix2_apply (Accum.resultT m c) transposes_S20x1024_S1024x20_1_0 b n).trans rfl

/-- The run, read: every weakly fair execution ends with the result array at the specification and the four
    arguments as they were. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v6 (Pipeline.mem_restRefs_of main_v6 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.RefIsSpec.lean ====
/-
  The reference program computes the specification.

  Read one result element at a time, the reference's last value at (b, n) is a selection: on the
  condition "2t ≤ n and n < (t+1)·2" (signed 32-bit comparisons of the column number, as a word, with
  the two ends of the task's window, both ends computed with wrapping arithmetic) it takes the dot
  product of row b of the flattened input with column n of the weights plus the n-th bias, and
  otherwise the fill constant. Each of its operations reads its operands at an index that is a fixed
  function of the result's index; composing those index functions gives (b, k) and (k, n) for the two
  factors of the k-th product, n for the bias, and the one index of a scalar for the task word. The
  window's upper end (t+1)·2 is the word t·2 + 2 by distributivity modulo 2³². With these
  identifications the two sides are the same term.
-/
import proofs.«134110_g42339787604781_fold_wed_m_270_15_alg».proof.Proof.Gen.ReferenceIdeal.Read
import proofs.«134110_g42339787604781_fold_wed_m_270_15_alg».proof.Proof.Spec

noncomputable section

open scoped BigOperators

namespace Cert.ReferenceIdeal.RefValue

open Cert.ReferenceIdeal Cert.ReferenceIdeal.Read Idealize.ShloMosaic Idealize.ShloMosaic.ValueIdx

/-- The reference's result is the specified function of the flattened input, the task word, the weights
    and the bias. -/
theorem result_eq_spec (x0 : (⟨S1024x3x64x64, .f32⟩ : BufTy).Contents (Elt Ideal)) (x1 : (⟨S_, .i32⟩ : BufTy).Contents (Elt Ideal)) (x2 : (⟨S12288x20, .f32⟩ : BufTy).Contents (Elt Ideal)) (x3 : (⟨S20, .f32⟩ : BufTy).Contents (Elt Ideal)) :
    val_main_v15 (F := Ideal) x0 x1 x2 x3 = Cert.Spec.out (val_main_v0 (F := Ideal) x0) (x1 ix0) x2 x3 := by
  funext i
  obtain ⟨b, n, rfl⟩ : ∃ (b : Fin 1024) (n : Fin 20), i = ix2 b n := ⟨i 0, i 1, eq_ix2 i⟩
  -- every operation at an index, from the selection inwards
  rw [val_main_v15_apply, val_main_call0_v0_apply, val_main_v14_apply, val_main_v13_apply, val_main_v10_apply,
    val_main_v12_apply, val_main_v8_apply, val_main_v9_apply, val_main_v11_apply, val_main_v5_apply, val_main_v7_apply,
    val_main_v6_apply, val_main_c_apply, val_main_c_0_apply, val_main_c_1_apply,
    val_main_v4_apply, val_main_v1_apply, val_main_v3_apply, val_main_v2_apply,
    val_main_call0_v1_apply, val_main_cst_apply]
  -- a scalar has one index
  have e9 : idx_main_v9 (idx_main_v14 (idx_main_call0_v0 (ix2 b n))) = ix0 := funext fun a => a.elim0
  have e11 : idx_main_v11 (idx_main_v14 (idx_main_call0_v0 (ix2 b n))) = ix0 := funext fun a => a.elim0
  -- the k-th product reads the input at (b, k) and the weights at (k, n)
  have el : ∀ k : Fin 12288, lidx_main_v1 (ix2 b n) k = ix2 b k := fun k => funext fun a => by
    match a with
    | ⟨0, _⟩ => rfl
    | ⟨1, _⟩ => rfl
  have er : ∀ k : Fin 12288, ridx_main_v1 (ix2 b n) k = ix2 k n := fun k => funext fun a => by
    match a with
    | ⟨0, _⟩ => rfl
    | ⟨1, _⟩ => rfl
  -- the bias, broadcast along the rows, is read at n
  have eb : idx_main_v2 (idx_main_v3 (ix2 b n)) = ix1 n := funext fun a => by
    match a with
    | ⟨0, _⟩ => rfl
  rw [e9, e11, eb, Cert.Spec.upper_eq]
  simp only [el, er]
  rfl

end Cert.ReferenceIdeal.RefValue

end
-- ==== Proof.lean ====
/-
  A flatten, a linear layer and a task-column mask, computed two ways, are one function on the extended reals.

  The kernel's program works on the transposed problem: it flattens the input x to [1024, 12288] and transposes
  it, transposes the weights W, and runs a six-point grid over the contraction axis in chunks of 2048; each point
  multiplies a [20, 2048] block of Wᵀ by a [2048, 1024] block of xᵀ and accumulates the product in a scratch
  block; the last point adds the bias down the rows, replaces every row n outside 2t ≤ n < 2t + 2 by a fill
  constant, and the block is transposed back. The reference multiplies the flattened x by W, adds the bias along
  the columns and replaces every column n outside 2t ≤ n < 2(t + 1) by the same constant.

  At entry (b, n) both are  ∑ₖ x(b, k) · W(k, n) + bias(n)  inside the window and the constant outside it:
    · the window's two upper ends, t · 2 + 2 and (t + 1) · 2, are one 32-bit word (distributivity mod 2³²);
    · the six chunk sums add up to the whole contraction, a regrouping of a finite sum in a commutative monoid;
    · each product is taken in the other order, and multiplication of extended reals commutes;
    · transposing twice is the identity.
  None of these steps needs the inputs to be finite, so the precondition is never opened.

  The three frames are the generated frame runs (the reference's is its generated run with the result dropped);
  the kernel's idealization rewrote no operation, so that conjunct is `True`.
-/
import proofs.«134110_g42339787604781_fold_wed_m_270_15_alg».proof.Defs
import proofs.«134110_g42339787604781_fold_wed_m_270_15_alg».proof.Proof.Gen.Kernel
import proofs.«134110_g42339787604781_fold_wed_m_270_15_alg».proof.Proof.Gen.Kernel.Frame
import proofs.«134110_g42339787604781_fold_wed_m_270_15_alg».proof.Proof.Gen.KernelIdeal
import proofs.«134110_g42339787604781_fold_wed_m_270_15_alg».proof.Proof.Gen.KernelIdeal.Frame
import proofs.«134110_g42339787604781_fold_wed_m_270_15_alg».proof.Proof.Gen.ReferenceIdeal
import proofs.«134110_g42339787604781_fold_wed_m_270_15_alg».proof.Proof.Gen.ReferenceIdeal.Run
import proofs.«134110_g42339787604781_fold_wed_m_270_15_alg».proof.Proof.Gen.ReferenceIdeal.Read
import proofs.«134110_g42339787604781_fold_wed_m_270_15_alg».proof.Proof.Gen.Pre_finite_inputs
import proofs.«134110_g42339787604781_fold_wed_m_270_15_alg».proof.Proof.KernelRun
import proofs.«134110_g42339787604781_fold_wed_m_270_15_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification of the agreed arguments in their result arrays. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.result_eq_spec,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
